-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S32768x2048 .f32) (main_arg1 : FVec F S2048 .f32) (main_arg2 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048 : Shape := ⟨1, ![2048]⟩
abbrev S1x2048 : Shape := ⟨2, ![1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S32768x2048, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)

variable [Facts₀]

class Facts : Prop extends Facts₀ where

variable [Facts]
-- ==== Proof.Spec.lean ====
/-
  The function both programs compute, entry by entry, on the extended reals:

      out[r, f] = logistic (x[r, f] · (4 · w[f]) + 4 · b[f]),      r < 32768, f < 2048,

  a per-feature affine map of the input followed by the logistic function. Only the column f of an entry
  selects the weight and the bias.
-/
import Idealize.ShloMosaic.PureOps.Ideal

noncomputable section

namespace Cert.Spec

open Idealize.ShloMosaic

/-- The input and the result: 32768 rows of 2048 features. -/
abbrev Rows : Shape := ⟨2, ![32768, 2048]⟩
/-- The weight and the bias: one number per feature. -/
abbrev Feat : Shape := ⟨1, ![2048]⟩

/-- The feature (column) of an entry. -/
abbrev col (i : Rows.Idx) : Feat.Idx := fun a => match a with
  | ⟨0, _⟩ => ⟨(i 1).val, (i 1).isLt⟩

/-- One entry: logistic (x · (4 · w) + 4 · b), the 4 spelt as its single-precision pattern. -/
abbrev entry (x w b : Ideal .f32) : Ideal .f32 :=
  FloatOps.logistic (FloatOps.addf
    (FloatOps.mulf x (FloatOps.mulf (FloatOps.ofBits .f32 0x40800000#32) w))
    (FloatOps.mulf (FloatOps.ofBits .f32 0x40800000#32) b))

/-- The result array as one function of the three argument arrays. -/
def result (x : Rows.Idx → Ideal .f32) (w b : Feat.Idx → Ideal .f32) : Rows.Idx → Ideal .f32 := fun i =>
  entry (x i) (w (col i)) (b (col i))

end Cert.Spec

end
-- ==== Proof.KernelSide.lean ====
/-
  The kernel's result array, read entry by entry, is the specification.

  The grid has 64 points; point t works on rows 512·t … 512·t + 511 of the input, all 2048 features wide, and on
  the single row of the weight and of the bias (each reshaped from [2048] to [1, 2048] before the launch). At an
  entry of its block the body computes logistic (x · (4·w) + 4·b) with w and b read at the entry's column. So what
  point t writes back is the restriction to its rows of ONE whole-array function, and the 64 row blocks cover all
  32768 rows: the array after the run is that function. Reading the two reshaped rows at (0, f) gives w[f], b[f].
-/
import proofs.«130926_j24807731102291_2_alg».proof.Proof.Gen.KernelIdeal.Value
import proofs.«130926_j24807731102291_2_alg».proof.Proof.Spec
import Idealize.ShloMosaic.Lib.Pipeline.Value
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The entry of a one-row array [1, 2048] under an entry of the big array: row 0, same column. -/
abbrev rowOf (i : S32768x2048.Idx) : S1x2048.Idx := fun a => match a with
  | ⟨0, _⟩ => ⟨0, Nat.one_pos⟩
  | ⟨1, _⟩ => ⟨(i 1).val, (i 1).isLt⟩

/-- The result as one function of the three arrays the launch finds: the input and the two one-row arrays. -/
def staged (x : S32768x2048.Idx → Ideal .f32) (w b : S1x2048.Idx → Ideal .f32) : S32768x2048.Idx → Ideal .f32 := fun i =>
  Cert.Spec.entry (x i) (w (rowOf i)) (b (rowOf i))

/-- The block indices over the grid: the input's and the output's row block is the point's number, every column
    block is 0, and the weight's and the bias's one block is block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is its row block of the whole-array function. -/
theorem flushed_eq (c : Dev nD) (t : Fin cfg0.N) :
    (dats m 0 c).flushed 3 t
      = ((cfg0.win 3).blk t).view.read (Elt Ideal) (staged (V m c main_arg0) (V m c main_v0) (V m c main_v1)) := by
  rw [Value.flushed3]
  unfold out0_3
  simp only [View.ld_unit_zero (S := S512x2048) offsets_zero, View.ld_unit_zero (S := S1x2048) offsets_zero]
  obtain ⟨e0, e1, e2, e3, e4, e5, e6, e7⟩ := block_indices t
  funext j
  refine (Value.canon3_eq (F := Ideal) (iblk m c 0 t) (iblk m c 1 t) (iblk m c 2 t) j).trans ?_
  show Cert.Spec.entry (V m c main_arg0 (((cfg0.win 0).blk t).view.emb (Value.ix3_0 j)))
      (V m c main_v0 (((cfg0.win 1).blk t).view.emb (Value.ix3_1 j)))
      (V m c main_v1 (((cfg0.win 2).blk t).view.emb (Value.ix3_2 j)))
    = Cert.Spec.entry (V m c main_arg0 (((cfg0.win 3).blk t).view.emb j))
      (V m c main_v0 (rowOf (((cfg0.win 3).blk t).view.emb j)))
      (V m c main_v1 (rowOf (((cfg0.win 3).blk t).view.emb j)))
  have hj0 : (j 0).val < 512 := (j 0).isLt
  have hj1 : (j 1).val < 2048 := (j 1).isLt
  -- the input's block and the output's block are the same rectangle of rows
  have h0 : ((cfg0.win 0).blk t).view.emb (Value.ix3_0 j) = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * (j 1).val = win0_3.index t (1 : Fin 2) * 2048 + 1 * (j 1).val; omega
  -- the weight's block is its whole row, read at the entry's column
  have h1 : ((cfg0.win 1).blk t).view.emb (Value.ix3_1 j) = rowOf (((cfg0.win 3).blk t).view.emb j) := by
    funext a; apply Fin.ext
    match a with
    | ⟨0, _⟩ => show win0_1.index t (0 : Fin 2) * 1 + 1 * 0 = 0; omega
    | ⟨1, _⟩ => show win0_1.index t (1 : Fin 2) * 2048 + 1 * (j 1).val = win0_3.index t (1 : Fin 2) * 2048 + 1 * (j 1).val; omega
  -- and so is the bias's
  have h2 : ((cfg0.win 2).blk t).view.emb (Value.ix3_2 j) = rowOf (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 2048 + 1 * (j 1).val = win0_3.index t (1 : Fin 2) * 2048 + 1 * (j 1).val; omega
  rw [h0, h1, h2]

/-- An entry is in point t's block exactly when its row and its column are in the block's ranges. -/
theorem mem_block (t : Fin cfg0.N) (i : S32768x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v2).slice (win0_3.rect t)).set ↔ _
  rw [View.set_slice_whole, Rect.mem_set_unit]
  exact Iff.rfl

/-- Every entry is in the block of the point numbered by its row divided by 512. -/
theorem covered (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  have hN : cfg0.N = 64 := rfl
  have ht : (i 0).val / 512 < cfg0.N := by omega
  obtain ⟨-, -, -, -, -, -, e6, e7⟩ := block_indices ⟨(i 0).val / 512, ht⟩
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 2048 ≤ (i 1).val
      ∧ (i 1).val < win0_3.index ⟨(i 0).val / 512, ht⟩ (1 : Fin 2) * 2048 + 2048
    omega

/-- The result array after the run is the whole-array function of the arrays the launch finds. -/
theorem final_staged (c : Dev nD) :
    (dats m 0 c).arrAt 3 cfg0.N = staged (V m c main_arg0) (V m c main_v0) (V m c main_v1) :=
  (dats m 0 c).arrAt_eq_of_cover 3 _ (fun t _ => flushed_eq m c t) covered

/-- The launch finds the weight as one row: the reshape of the weight argument. -/
theorem staged_weight (c : Dev nD) : (V m c main_v0 : S1x2048.Idx → Ideal .f32)
    = shapeCast S1x2048 (m ((c : Thread nD τ).loc main_arg1) : S2048.Idx → Ideal .f32) shapeCasts_S2048_S1x2048 := by
  dsimp only [Gen.V, Gen.hostOps0]; after_results; rfl

/-- The launch finds the bias as one row: the reshape of the bias argument. -/
theorem staged_bias (c : Dev nD) : (V m c main_v1 : S1x2048.Idx → Ideal .f32)
    = shapeCast S1x2048 (m ((c : Thread nD τ).loc main_arg2) : S2048.Idx → Ideal .f32) shapeCasts_S2048_S1x2048 := by
  dsimp only [Gen.V, Gen.hostOps0]; after_results; rfl

/-- A vector of 2048 numbers reshaped to one row, read under an entry, is the vector at the entry's column. -/
theorem row_read (v : S2048.Idx → Ideal .f32) (i : S32768x2048.Idx) :
    shapeCast S1x2048 v shapeCasts_S2048_S1x2048 (rowOf i) = v (Cert.Spec.col i) := by
  refine shapeCast_apply v _ (rowOf i) (Cert.Spec.col i) ?_
  simp [Shape.rowMajor_val_two, Shape.rowMajor_val_one]

/-- The result array after the run is the specification of the three arguments. -/
theorem final (c : Dev nD) :
    (dats m 0 c).arrAt 3 cfg0.N = Cert.Spec.result (m ((c : Thread nD τ).loc main_arg0))
      (m ((c : Thread nD τ).loc main_arg1)) (m ((c : Thread nD τ).loc main_arg2)) := by
  rw [final_staged, V_main_arg0, staged_weight, staged_bias]
  funext i
  show Cert.Spec.entry (m ((c : Thread nD τ).loc main_arg0) i)
      (shapeCast S1x2048 (m ((c : Thread nD τ).loc main_arg1) : S2048.Idx → Ideal .f32) shapeCasts_S2048_S1x2048 (rowOf i))
      (shapeCast S1x2048 (m ((c : Thread nD τ).loc main_arg2) : S2048.Idx → Ideal .f32) shapeCasts_S2048_S1x2048 (rowOf i)) = _
  rw [row_read, row_read]
  rfl

/-- The run: every weakly fair execution ends with the result array at the specification of the arguments, the
    arguments unchanged. -/
theorem run : θ_run defs (onTc (τ := τ) (main (F := Ideal))) ⟨m, fun _ => 0, ρ⟩ fun r => ∀ c : Dev nD,
      r.2.mem ((c : Thread nD τ).loc main_v2) = Cert.Spec.result (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.ScaledLogistic.lean ====
/-
  The arithmetic that joins the two programs, on the extended reals.

  One program scales the per-feature weight and bias by 4 first and then forms x·(4·w) + 4·b; the other forms
  x·w + b and scales the sum by 4. A nonnegative REAL factor distributes over every sum of extended reals
  (the infinities included: 4·(⊤ + ⊥) = ⊥ = 4·⊤ + 4·⊥), and the product of extended reals is commutative and
  associative, so the two arguments of the logistic function are equal for ALL x, w, b — no finiteness is used.
  The logistic function itself is, by definition, 1 / (1 + exp (−y)), which is exactly the expansion the second
  program spells with a negation, an exponential, a sum and a quotient.
-/
import Idealize.ShloMosaic.PureOps.Ideal

noncomputable section

namespace Cert.ScaledLogistic

open Idealize.ShloMosaic

/-- The single-precision pattern 0x40800000 denotes the real number 4. -/
theorem four_eq : Ideal.ofBits .f32 0x40800000#32 = ((4 : ℝ) : EReal) := by
  simp [Ideal.ofBits, Ideal.ieee, -EReal.coe_mul]; norm_num

/-- The single-precision pattern 0x3F800000 denotes 1. -/
theorem one_eq : Ideal.ofBits .f32 0x3F800000#32 = 1 := by
  simp [Ideal.ofBits, Ideal.ieee, -EReal.coe_mul]; norm_num

/-- Scaling after the affine map is scaling the weight and the bias before it: 4·(x·w + b) = x·(4·w) + 4·b on
    the extended reals. -/
theorem scale_affine (x w b : EReal) :
    ((4 : ℝ) : EReal) * (x * w + b) = x * (((4 : ℝ) : EReal) * w) + ((4 : ℝ) : EReal) * b := by
  have h0 : (0 : EReal) ≤ ((4 : ℝ) : EReal) := by exact_mod_cast (by norm_num : (0 : ℝ) ≤ 4)
  rw [EReal.left_distrib_of_nonneg_of_ne_top h0 (EReal.coe_ne_top 4), mul_left_comm]

/-- One entry of the two results, in the programs' own operations: the logistic function of x·(4·w) + 4·b is
    1 / (1 + exp (−(4·(x·w + b)))). -/
theorem entry (x w b : Ideal .f32) :
    FloatOps.logistic (FloatOps.addf (FloatOps.mulf x (FloatOps.mulf (FloatOps.ofBits .f32 0x40800000#32) w))
        (FloatOps.mulf (FloatOps.ofBits .f32 0x40800000#32) b))
      = FloatOps.hostDivf (FloatOps.ofBits .f32 0x3F800000#32)
          (FloatOps.addf (FloatOps.ofBits .f32 0x3F800000#32)
            (FloatOps.hostUnary .exp (FloatOps.hostNegf
              (FloatOps.mulf (FloatOps.ofBits .f32 0x40800000#32) (FloatOps.addf (FloatOps.mulf x w) b))))) := by
  show Ideal.logistic (x * (Ideal.ofBits .f32 0x40800000#32 * w) + Ideal.ofBits .f32 0x40800000#32 * b)
      = Ideal.div (Ideal.ofBits .f32 0x3F800000#32)
          (Ideal.ofBits .f32 0x3F800000#32 + Ideal.exp (-(Ideal.ofBits .f32 0x40800000#32 * (x * w + b))))
  rw [four_eq, one_eq, scale_affine]
  rfl

end Cert.ScaledLogistic

end
-- ==== Proof.ReferenceSide.lean ====
/-
  The reference's result, read entry by entry, is the specification.

  Its program broadcasts the weight and the bias along the rows (first to one row, then to all 32768), forms
  x·w + b, multiplies by 4, and spells the logistic function as 1 / (1 + exp (−y)). At an entry (r, f) the two
  broadcasts read w and b at the column f; what remains is the scalar identity
  logistic (x·(4·w) + 4·b) = 1 / (1 + exp (−(4·(x·w + b)))).
-/
import proofs.«130926_j24807731102291_2_alg».proof.Proof.Gen.ReferenceIdeal.Read
import proofs.«130926_j24807731102291_2_alg».proof.Proof.Spec
import proofs.«130926_j24807731102291_2_alg».proof.Proof.ScaledLogistic

noncomputable section

namespace Cert.ReferenceIdeal.RefValue

open Idealize.ShloMosaic Cert.ReferenceIdeal Cert.ReferenceIdeal.Read

/-- The last stage of the reference, as a function of the three arguments, is the specification. -/
theorem reference_eq (x0 : S32768x2048.Idx → Ideal .f32) (x1 x2 : S2048.Idx → Ideal .f32) :
    val_main_v13 (F := Ideal) x0 x1 x2 = Cert.Spec.result x0 x1 x2 := by
  funext i
  -- both broadcasts of the weight, and both of the bias, read the column of the entry
  have hw : idx_main_v0 (idx_main_v1 i) = Cert.Spec.col i := funext fun a => match a with | ⟨0, _⟩ => rfl
  have hb : idx_main_v3 (idx_main_v4 i) = Cert.Spec.col i := funext fun a => match a with | ⟨0, _⟩ => rfl
  rw [val_main_v13_apply, val_main_v12_apply, val_main_cst_1_apply, val_main_v11_apply, val_main_v10_apply,
    val_main_cst_0_apply, val_main_v9_apply, val_main_v8_apply, val_main_v7_apply, val_main_v6_apply,
    val_main_cst_apply, val_main_v5_apply, val_main_v2_apply, val_main_v1_apply, val_main_v0_apply,
    val_main_v4_apply, val_main_v3_apply, hw, hb]
  exact (Cert.ScaledLogistic.entry (x0 i) (x1 (Cert.Spec.col i)) (x2 (Cert.Spec.col i))).symm

end Cert.ReferenceIdeal.RefValue

end
-- ==== Proof.lean ====
/-
  A per-feature affine map followed by the logistic function, over 32768 rows of 2048 features:

      out[r, f] = logistic (4 · (x[r, f] · w[f] + b[f])).

  The kernel walks the rows in 64 blocks of 512; in each block it first scales the weight row and the bias row by
  4 and then forms logistic (x·(4·w) + 4·b). The reference forms x·w + b on whole arrays, scales by 4 and spells the
  logistic function as 1 / (1 + exp (−y)). On the extended reals a nonnegative real factor distributes over every
  sum, so 4·(x·w + b) = x·(4·w) + 4·b for all x, w, b, and the logistic function is by definition that quotient:
  the two results are one function of the arguments, entry by entry (Proof/Spec.lean), with no use of the
  inputs' finiteness.

  Proof/ScaledLogistic.lean is the scalar identity; Proof/ReferenceSide.lean reads the reference's last stage at an
  entry; Proof/KernelSide.lean reads what each grid point writes back, shows the 64 row blocks cover the array, and
  reads the two reshaped rows. The three frames are the generated frame runs, and the kernel's idealization
  rewrote no operation.
-/
import proofs.«130926_j24807731102291_2_alg».proof.Defs
import proofs.«130926_j24807731102291_2_alg».proof.Proof.Gen.Kernel
import proofs.«130926_j24807731102291_2_alg».proof.Proof.Gen.Kernel.Skeleton
import proofs.«130926_j24807731102291_2_alg».proof.Proof.Gen.Kernel.Launch
import proofs.«130926_j24807731102291_2_alg».proof.Proof.Gen.Kernel.Points
import proofs.«130926_j24807731102291_2_alg».proof.Proof.Gen.Kernel.Frame
import proofs.«130926_j24807731102291_2_alg».proof.Proof.Gen.KernelIdeal
import proofs.«130926_j24807731102291_2_alg».proof.Proof.Gen.KernelIdeal.Skeleton
import proofs.«130926_j24807731102291_2_alg».proof.Proof.Gen.KernelIdeal.Launch
import proofs.«130926_j24807731102291_2_alg».proof.Proof.Gen.KernelIdeal.Points
import proofs.«130926_j24807731102291_2_alg».proof.Proof.Gen.KernelIdeal.Frame
import proofs.«130926_j24807731102291_2_alg».proof.Proof.Gen.ReferenceIdeal
import proofs.«130926_j24807731102291_2_alg».proof.Proof.Gen.Pre_finite_inputs
import proofs.«130926_j24807731102291_2_alg».proof.Proof.Gen.KernelIdeal.Value
import proofs.«130926_j24807731102291_2_alg».proof.Proof.Gen.ReferenceIdeal.Run
import proofs.«130926_j24807731102291_2_alg».proof.Proof.Gen.ReferenceIdeal.Read
import proofs.«130926_j24807731102291_2_alg».proof.Proof.KernelSide
import proofs.«130926_j24807731102291_2_alg».proof.Proof.ReferenceSide
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result array at the specification of the (agreeing) arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
